-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v208)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x64 : Shape := ⟨2, ![1, 64]⟩
abbrev S100000x64 : Shape := ⟨2, ![100000, 64]⟩
abbrev S2000x512 : Shape := ⟨2, ![2000, 512]⟩
abbrev S2000x64 : Shape := ⟨2, ![2000, 64]⟩
abbrev S1600000x64 : Shape := ⟨2, ![1600000, 64]⟩

abbrev nBuf : Space → Nat
  | .hbm => 272
  | .vmem => 8
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S1x64, .f32⟩
  | 40 => ⟨S1x64, .f32⟩
  | 41 => ⟨S100000x64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S_, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S100000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S1600000x1, .f32⟩
  | 75 => ⟨S1600000x64, .f32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S_, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S1600000x1, .f32⟩
  | 98 => ⟨S1600000x64, .f32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S_, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1600000x1, .f32⟩
  | 121 => ⟨S1600000x64, .f32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S_, .f32⟩
  | _ => ⟨S100000x512, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S1600000x1, .f32⟩
  | 16 => ⟨S1600000x64, .f32⟩
  | 17 => ⟨S1600000x64, .f32⟩
  | 18 => ⟨S_, .f32⟩
  | 19 => ⟨S100000x64, .f32⟩
  | 20 => ⟨S1600000x1, .i32⟩
  | 21 => ⟨S100000x64, .f32⟩
  | 22 => ⟨S_, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S1600000x1, .f32⟩
  | 39 => ⟨S1600000x64, .f32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S_, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x1, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S_, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x64, .f32⟩
  | 84 => ⟨S1600000x1, .f32⟩
  | 85 => ⟨S1600000x64, .f32⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S_, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S1600000x1, .f32⟩
  | 108 => ⟨S1600000x64, .f32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x512, .f32⟩

abbrev hbmTy0_2 (i : Nat) : BufTy := match i % 128 with
  | 0 => ⟨S1600000x1, .i32⟩
  | 1 => ⟨S1600000x64, .f32⟩
  | 2 => ⟨S1600000x1, .f32⟩
  | 3 => ⟨S1600000x64, .f32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_c_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_20 : Ref sig .tc := ⟨.hbm, 111, rfl⟩
abbrev main_v83 : Ref sig .tc := ⟨.hbm, 112, rfl⟩
abbrev main_v84 : Ref sig .tc := ⟨.hbm, 113, rfl⟩
abbrev main_c_21 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_22 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_23 : Ref sig .tc := ⟨.hbm, 127, rfl⟩
abbrev main_v96 : Ref sig .tc := ⟨.hbm, 128, rfl⟩
abbrev main_v97 : Ref sig .tc := ⟨.hbm, 129, rfl⟩
abbrev main_cst_24 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_25 : Ref sig .tc := ⟨.hbm, 134, rfl⟩
abbrev main_v101 : Ref sig .tc := ⟨.hbm, 135, rfl⟩
abbrev main_v102 : Ref sig .tc := ⟨.hbm, 136, rfl⟩
abbrev main_c_26 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_27 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_28 : Ref sig .tc := ⟨.hbm, 150, rfl⟩
abbrev main_v114 : Ref sig .tc := ⟨.hbm, 151, rfl⟩
abbrev main_v115 : Ref sig .tc := ⟨.hbm, 152, rfl⟩
abbrev main_cst_29 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_30 : Ref sig .tc := ⟨.hbm, 157, rfl⟩
abbrev main_v119 : Ref sig .tc := ⟨.hbm, 158, rfl⟩
abbrev main_v120 : Ref sig .tc := ⟨.hbm, 159, rfl⟩
abbrev main_c_31 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_32 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_33 : Ref sig .tc := ⟨.hbm, 173, rfl⟩
abbrev main_v132 : Ref sig .tc := ⟨.hbm, 174, rfl⟩
abbrev main_v133 : Ref sig .tc := ⟨.hbm, 175, rfl⟩
abbrev main_cst_34 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_35 : Ref sig .tc := ⟨.hbm, 180, rfl⟩
abbrev main_v137 : Ref sig .tc := ⟨.hbm, 181, rfl⟩
abbrev main_v138 : Ref sig .tc := ⟨.hbm, 182, rfl⟩
abbrev main_c_36 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_37 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_38 : Ref sig .tc := ⟨.hbm, 196, rfl⟩
abbrev main_v150 : Ref sig .tc := ⟨.hbm, 197, rfl⟩
abbrev main_v151 : Ref sig .tc := ⟨.hbm, 198, rfl⟩
abbrev main_cst_39 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_c_40 : Ref sig .tc := ⟨.hbm, 203, rfl⟩
abbrev main_v155 : Ref sig .tc := ⟨.hbm, 204, rfl⟩
abbrev main_v156 : Ref sig .tc := ⟨.hbm, 205, rfl⟩
abbrev main_c_41 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_42 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_43 : Ref sig .tc := ⟨.hbm, 219, rfl⟩
abbrev main_v168 : Ref sig .tc := ⟨.hbm, 220, rfl⟩
abbrev main_v169 : Ref sig .tc := ⟨.hbm, 221, rfl⟩
abbrev main_cst_44 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_c_45 : Ref sig .tc := ⟨.hbm, 226, rfl⟩
abbrev main_v173 : Ref sig .tc := ⟨.hbm, 227, rfl⟩
abbrev main_v174 : Ref sig .tc := ⟨.hbm, 228, rfl⟩
abbrev main_c_46 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_cst_47 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_cst_48 : Ref sig .tc := ⟨.hbm, 242, rfl⟩
abbrev main_v186 : Ref sig .tc := ⟨.hbm, 243, rfl⟩
abbrev main_v187 : Ref sig .tc := ⟨.hbm, 244, rfl⟩
abbrev main_cst_49 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_c_50 : Ref sig .tc := ⟨.hbm, 249, rfl⟩
abbrev main_v191 : Ref sig .tc := ⟨.hbm, 250, rfl⟩
abbrev main_v192 : Ref sig .tc := ⟨.hbm, 251, rfl⟩
abbrev main_c_51 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_cst_52 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_cst_53 : Ref sig .tc := ⟨.hbm, 265, rfl⟩
abbrev main_v204 : Ref sig .tc := ⟨.hbm, 266, rfl⟩
abbrev main_v205 : Ref sig .tc := ⟨.hbm, 267, rfl⟩
abbrev main_cst_54 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x512_S512x64_S2000x64_1_0_0_1_n_n_wf : DotDims.WF S2000x512 S512x64 S2000x64 [1] [0] [0] [1] [] []
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 280
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x1, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S_, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x1, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S_, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S1600000x1, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S_, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x512, .f32⟩

abbrev hbmTy0_1 (i : Nat) : BufTy := match i % 128 with
  | 0 => ⟨S1600000x1, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1600000x1, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S100000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S1600000x1, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S1600000x1, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S1600000x1, .f32⟩
  | 93 => ⟨S1600000x64, .f32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S_, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x1, .f32⟩
  | 116 => ⟨S1600000x64, .f32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x512, .f32⟩

abbrev hbmTy0_2 (i : Nat) : BufTy := match i % 128 with
  | 0 => ⟨S100000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x1, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S_, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x64, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_20 : Ref sig .tc := ⟨.hbm, 119, rfl⟩
abbrev main_v89 : Ref sig .tc := ⟨.hbm, 120, rfl⟩
abbrev main_v90 : Ref sig .tc := ⟨.hbm, 121, rfl⟩
abbrev main_c_21 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_22 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_23 : Ref sig .tc := ⟨.hbm, 135, rfl⟩
abbrev main_v102 : Ref sig .tc := ⟨.hbm, 136, rfl⟩
abbrev main_v103 : Ref sig .tc := ⟨.hbm, 137, rfl⟩
abbrev main_cst_24 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_25 : Ref sig .tc := ⟨.hbm, 142, rfl⟩
abbrev main_v107 : Ref sig .tc := ⟨.hbm, 143, rfl⟩
abbrev main_v108 : Ref sig .tc := ⟨.hbm, 144, rfl⟩
abbrev main_c_26 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_27 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_28 : Ref sig .tc := ⟨.hbm, 158, rfl⟩
abbrev main_v120 : Ref sig .tc := ⟨.hbm, 159, rfl⟩
abbrev main_v121 : Ref sig .tc := ⟨.hbm, 160, rfl⟩
abbrev main_cst_29 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_30 : Ref sig .tc := ⟨.hbm, 165, rfl⟩
abbrev main_v125 : Ref sig .tc := ⟨.hbm, 166, rfl⟩
abbrev main_v126 : Ref sig .tc := ⟨.hbm, 167, rfl⟩
abbrev main_c_31 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_32 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_33 : Ref sig .tc := ⟨.hbm, 181, rfl⟩
abbrev main_v138 : Ref sig .tc := ⟨.hbm, 182, rfl⟩
abbrev main_v139 : Ref sig .tc := ⟨.hbm, 183, rfl⟩
abbrev main_cst_34 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_c_35 : Ref sig .tc := ⟨.hbm, 188, rfl⟩
abbrev main_v143 : Ref sig .tc := ⟨.hbm, 189, rfl⟩
abbrev main_v144 : Ref sig .tc := ⟨.hbm, 190, rfl⟩
abbrev main_c_36 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_37 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_38 : Ref sig .tc := ⟨.hbm, 204, rfl⟩
abbrev main_v156 : Ref sig .tc := ⟨.hbm, 205, rfl⟩
abbrev main_v157 : Ref sig .tc := ⟨.hbm, 206, rfl⟩
abbrev main_cst_39 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c_40 : Ref sig .tc := ⟨.hbm, 211, rfl⟩
abbrev main_v161 : Ref sig .tc := ⟨.hbm, 212, rfl⟩
abbrev main_v162 : Ref sig .tc := ⟨.hbm, 213, rfl⟩
abbrev main_c_41 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_42 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_43 : Ref sig .tc := ⟨.hbm, 227, rfl⟩
abbrev main_v174 : Ref sig .tc := ⟨.hbm, 228, rfl⟩
abbrev main_v175 : Ref sig .tc := ⟨.hbm, 229, rfl⟩
abbrev main_cst_44 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_c_45 : Ref sig .tc := ⟨.hbm, 234, rfl⟩
abbrev main_v179 : Ref sig .tc := ⟨.hbm, 235, rfl⟩
abbrev main_v180 : Ref sig .tc := ⟨.hbm, 236, rfl⟩
abbrev main_c_46 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_cst_47 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_48 : Ref sig .tc := ⟨.hbm, 250, rfl⟩
abbrev main_v192 : Ref sig .tc := ⟨.hbm, 251, rfl⟩
abbrev main_v193 : Ref sig .tc := ⟨.hbm, 252, rfl⟩
abbrev main_cst_49 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_c_50 : Ref sig .tc := ⟨.hbm, 257, rfl⟩
abbrev main_v197 : Ref sig .tc := ⟨.hbm, 258, rfl⟩
abbrev main_v198 : Ref sig .tc := ⟨.hbm, 259, rfl⟩
abbrev main_c_51 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_cst_52 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_53 : Ref sig .tc := ⟨.hbm, 273, rfl⟩
abbrev main_v210 : Ref sig .tc := ⟨.hbm, 274, rfl⟩
abbrev main_v211 : Ref sig .tc := ⟨.hbm, 275, rfl⟩
abbrev main_cst_54 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x512_S512x64_S100000x64_1_0_0_1_n_n_wf : DotDims.WF S100000x512 S512x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RunKernel.lean ====
/-
  The run of `Kernel`'s @main, at any float instance: host lines that build the edge normalisation and re-lay the two
  bias rows, ONE pipelined region over 50 grid points that computes the two-layer perceptron row block by row block,
  and 230 later host lines (ten rounds of gather, scale, scatter-add and blend) that read the region's result.

  The region: at grid point `t` the body loads the 2000 x 512 block `t` of the features, both weight matrices and both
  bias rows whole, and stores ONE 2000 x 64 block, a pure function (`k0_pay1`) of what it loaded; it keeps nothing
  between points. So after the body the output's staging buffer holds that function of the point's input blocks, the
  input buffers hold their blocks, and the region leaves the result array at what the write-backs assemble
  (`Dat.arrAt`). The later lines write only buffers created after the region, hence none of the region's arrays and
  none of the arguments; so every argument ends as launched, and every other buffer ends at the later lines' value
  computed from the region's exit contents.
-/
import proofs.«140497_j47124381172062_1_alg».proof.Proof.Gen.Kernel.Launch
import proofs.«140497_j47124381172062_1_alg».proof.Proof.Gen.Kernel.Skeleton
import proofs.«140497_j47124381172062_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the earlier host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
set_option maxHeartbeats 4000000 in
theorem hostOps1_fresh : ∀ op ∈ (hostOps1 : List (HloOp τ sig (Elt F))), op.fresh = ∅ := by
  intro _ h; (repeat (cases h with | head => rfl | tail _ h => ?_)); exact nomatch h

set_option maxRecDepth 200000 in
/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The buffers that exist when the region returns and that matter afterwards: the six arguments, the two re-laid
    bias rows and the region's result. -/
abbrev early : List (Ref sig .tc) :=
  [main_arg0, main_arg1, main_arg2, main_arg3, main_arg4, main_arg5, main_v26, main_v27, main_v28]

set_option maxHeartbeats 40000000 in
/-- Every later line writes a buffer of its own, created after the region: none of the early ones. -/
theorem late_writes : (hostOps1 : List (HloOp τ sig (Elt F))).Forall fun op =>
    ∀ b ∈ early, Proc.devRef (τ := τ) .tc b ∉ op.writes := by
  simp only [hostOps1, early, List.Forall, List.forall_mem_cons, List.not_mem_nil, false_imp_iff, implies_true, and_true,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem late_keeps (b : Ref sig .tc) (hb : b ∈ early) :
    ∀ op ∈ (hostOps1 : List (HloOp τ sig (Elt F))), Proc.devRef (τ := τ) .tc b ∉ op.writes :=
  fun op hop => (List.forall_iff_forall_mem.mp late_writes) op hop b hb

/-- The later lines touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact hostOps1_fresh op hop
/-- Every array of the region is an early buffer. -/
theorem arr_early : ∀ w : Fin 6, Pipeline.arrRef spec0 w ∈ early := by decide
/-- So they write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact late_keeps _ (arr_early w) op hop

/-- No earlier host line writes an argument: the region finds each as launched. -/
theorem V_arg (b : Ref sig .tc) (hb : b ∈ ([main_arg0, main_arg1, main_arg2, main_arg3, main_arg4, main_arg5] : List (Ref sig .tc)))
    (c : Dev nD) : V m c b = m ((c : Thread nD τ).loc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl
  all_goals
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- A buffer that is early and no array of the region ends, after the later lines, as the region found it. -/
theorem W_early (dats : (p : Fin _) → (c : Dev nD) → Dat τ (Elt F) Unit ℕ (UR sig nD τ) ℕ (cfgs p) c) (c : Dev nD)
    (b : Ref sig .tc) (hb : b ∈ early) (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      simp only [List.flatten_cons, List.flatten_nil, List.append_nil]
      exact late_keeps b hb),
    Pipeline.withArrays_of_ne _ c (V0 m c) _ b hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output's staging buffer -/

abbrev rOut : Rect S2000x64 := Rect.unit (s := S2000x64) ![0, 0] S2000x64.size inb_S2000x64_S2000x64_0_0

/-- The output's staging buffer after the body: its one store, of the payload of the five loaded blocks. -/
def outBlk (x0 : Vec F S2000x512 .f32) (x1 : Vec F S512x64 .f32) (x2 : Vec F S1x64 .f32) (x3 : Vec F S64x64 .f32) (x4 : Vec F S1x64 .f32) : Vec F S2000x64 .f32 :=
  View.canon [⟨rOut, k0_pay1 (View.ld x0 (Rect.unit (s := S2000x512) ![0, 0] S2000x512.size inb_S2000x512_S2000x512_0_0))
    (View.ld x1 (Rect.unit (s := S512x64) ![0, 0] S512x64.size inb_S512x64_S512x64_0_0))
    (View.ld x2 (Rect.unit (s := S1x64) ![0, 0] S1x64.size inb_S1x64_S1x64_0_0))
    (View.ld x3 (Rect.unit (s := S64x64) ![0, 0] S64x64.size inb_S64x64_S64x64_0_0))
    (View.ld x4 (Rect.unit (s := S1x64) ![0, 0] S1x64.size inb_S1x64_S1x64_0_0))⟩]

/-- The one store covers the whole buffer. -/
theorem coverOut (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

/-! ## The body's triple -/

set_option maxHeartbeats 4000000 in
/-- The body on whole staging memrefs, the inputs' at read contents `xW` and the output's at anything, runs to the
    continuation holding the inputs' as they were and the output's at `outBlk` of the inputs'. -/
theorem sound_kernel (c : Dev nD) (E : Set ℕ) (i : grid0.Coords)
    (arg1 : Memref sig .tc .vmem S2000x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x512 .f32) (x1 : Vec F S512x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The region's proof data -/

/-- On core `c`: the arrays as the region finds them; after the body at point `t` each input's buffer at its block
    and the output's at `outBlk` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

/-- Each input's current staging buffer holds its block at every point, fetched there or not: an unfetched window's
    block index has not moved, and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option maxRecDepth 200000 in
set_option backward.isDefEq.respectTransparency.types false in
/-- Every weakly fair execution of @main terminates, and every final state has each array of the region at what the
    write-backs assemble and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## What the run leaves -/

/-- An argument that an input window stages ends as launched: an input is never written back. -/
theorem kept_in (r : PUnit × MemSt nD τ sig (Elt F))
    (h : Pipeline.FramePost cfgs (dats m) 0 (Pipeline.afterTail₀ cfgs (dats m) 0 (V0 m) [hostOps1]) r) (c : Dev nD)
    (w : Fin 6) (hin : (cfg0.win w).isOut = false)
    (hb : Pipeline.arrRef spec0 w ∈ ([main_arg0, main_arg1, main_arg2, main_arg3, main_arg4, main_arg5] : List (Ref sig .tc))) :
    r.2.mem ((c : Thread nD τ).loc (Pipeline.arrRef spec0 w)) = m ((c : Thread nD τ).loc (Pipeline.arrRef spec0 w)) :=
  ((h c).1 w).trans (((dats m 0 c).arrAt_in w hin _).trans ((A_eq m c w).trans (V_arg m _ hb c)))

/-- An argument no window stages ends as launched: neither the region nor a later line writes it. -/
theorem kept_rest (r : PUnit × MemSt nD τ sig (Elt F))
    (h : Pipeline.FramePost cfgs (dats m) 0 (Pipeline.afterTail₀ cfgs (dats m) 0 (V0 m) [hostOps1]) r) (c : Dev nD)
    (b : Ref sig .tc) (hs : b.isScoped = false) (hne : ∀ w, Pipeline.arrRef spec0 w ≠ b) (he : b ∈ early)
    (hb : b ∈ ([main_arg0, main_arg1, main_arg2, main_arg3, main_arg4, main_arg5] : List (Ref sig .tc))) :
    r.2.mem ((c : Thread nD τ).loc b) = m ((c : Thread nD τ).loc b) :=
  (((h c).2 b (Pipeline.mem_restRefs_of b hs hne)).trans (W_early m (dats m) c b he hne)).trans (V_arg m b hb c)

/-- The run with the result buffer NAMED — what the later lines compute from the region's exit contents — and the six
    arguments unchanged. -/
theorem run_named : θ_run defs (onTc (τ := τ) (main (F := F))) ⟨m, fun _ => 0, ρ⟩ (fun r => ∀ c : Dev nD,
      r.2.mem ((c.tc : Thread nD τ).loc main_v208) = Pipeline.afterTail₀ cfgs (dats m) 0 (V0 m) [hostOps1] c main_v208
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).2 main_v208 (Pipeline.mem_restRefs_of main_v208 (by decide) (by decide)),
      kept_in m r h c 0 rfl (by decide),
      kept_rest m r h c main_arg1 (by decide) (by decide) (by decide) (by decide),
      kept_in m r h c 1 rfl (by decide),
      kept_rest m r h c main_arg3 (by decide) (by decide) (by decide) (by decide),
      kept_in m r h c 3 rfl (by decide),
      kept_rest m r h c main_arg5 (by decide) (by decide) (by decide) (by decide)⟩) (run_main m ρ)

/-- The frame: @main terminates without a fault and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Hand

end
-- ==== Proof.RunKernelIdeal.lean ====
/-
  The run of `KernelIdeal`'s @main, at any float instance: host lines that build the edge normalisation and re-lay the two
  bias rows, ONE pipelined region over 50 grid points that computes the two-layer perceptron row block by row block,
  and 230 later host lines (ten rounds of gather, scale, scatter-add and blend) that read the region's result.

  The region: at grid point `t` the body loads the 2000 x 512 block `t` of the features, both weight matrices and both
  bias rows whole, and stores ONE 2000 x 64 block, a pure function (`k0_pay1`) of what it loaded; it keeps nothing
  between points. So after the body the output's staging buffer holds that function of the point's input blocks, the
  input buffers hold their blocks, and the region leaves the result array at what the write-backs assemble
  (`Dat.arrAt`). The later lines write only buffers created after the region, hence none of the region's arrays and
  none of the arguments; so every argument ends as launched, and every other buffer ends at the later lines' value
  computed from the region's exit contents.
-/
import proofs.«140497_j47124381172062_1_alg».proof.Proof.Gen.KernelIdeal.Launch
import proofs.«140497_j47124381172062_1_alg».proof.Proof.Gen.KernelIdeal.Skeleton
import proofs.«140497_j47124381172062_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the earlier host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
set_option maxHeartbeats 4000000 in
theorem hostOps1_fresh : ∀ op ∈ (hostOps1 : List (HloOp τ sig (Elt F))), op.fresh = ∅ := by
  intro _ h; (repeat (cases h with | head => rfl | tail _ h => ?_)); exact nomatch h

set_option maxRecDepth 200000 in
/-- @main is the earlier lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The buffers that exist when the region returns and that matter afterwards: the six arguments, the two re-laid
    bias rows and the region's result. -/
abbrev early : List (Ref sig .tc) :=
  [main_arg0, main_arg1, main_arg2, main_arg3, main_arg4, main_arg5, main_v26, main_v27, main_v28]

set_option maxHeartbeats 40000000 in
/-- Every later line writes a buffer of its own, created after the region: none of the early ones. -/
theorem late_writes : (hostOps1 : List (HloOp τ sig (Elt F))).Forall fun op =>
    ∀ b ∈ early, Proc.devRef (τ := τ) .tc b ∉ op.writes := by
  simp only [hostOps1, early, List.Forall, List.forall_mem_cons, List.not_mem_nil, false_imp_iff, implies_true, and_true,
    StableHlo.nullary_writes, StableHlo.unary_writes, StableHlo.binary_writes, StableHlo.ternary_writes,
    StableHlo.reshape_writes, Finset.mem_singleton]
  repeat' apply And.intro
  all_goals exact StableHlo.devRef_ne_of_ne (by decide)

theorem late_keeps (b : Ref sig .tc) (hb : b ∈ early) :
    ∀ op ∈ (hostOps1 : List (HloOp τ sig (Elt F))), Proc.devRef (τ := τ) .tc b ∉ op.writes :=
  fun op hop => (List.forall_iff_forall_mem.mp late_writes) op hop b hb

/-- The later lines touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact hostOps1_fresh op hop
/-- Every array of the region is an early buffer. -/
theorem arr_early : ∀ w : Fin 6, Pipeline.arrRef spec0 w ∈ early := by decide
/-- So they write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact late_keeps _ (arr_early w) op hop

/-- No earlier host line writes an argument: the region finds each as launched. -/
theorem V_arg (b : Ref sig .tc) (hb : b ∈ ([main_arg0, main_arg1, main_arg2, main_arg3, main_arg4, main_arg5] : List (Ref sig .tc)))
    (c : Dev nD) : V m c b = m ((c : Thread nD τ).loc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl
  all_goals
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- A buffer that is early and no array of the region ends, after the later lines, as the region found it. -/
theorem W_early (dats : (p : Fin _) → (c : Dev nD) → Dat τ (Elt F) Unit ℕ (UR sig nD τ) ℕ (cfgs p) c) (c : Dev nD)
    (b : Ref sig .tc) (hb : b ∈ early) (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      simp only [List.flatten_cons, List.flatten_nil, List.append_nil]
      exact late_keeps b hb),
    Pipeline.withArrays_of_ne _ c (V0 m c) _ b hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output's staging buffer -/

abbrev rOut : Rect S2000x64 := Rect.unit (s := S2000x64) ![0, 0] S2000x64.size inb_S2000x64_S2000x64_0_0

/-- The output's staging buffer after the body: its one store, of the payload of the five loaded blocks. -/
def outBlk (x0 : Vec F S2000x512 .f32) (x1 : Vec F S512x64 .f32) (x2 : Vec F S1x64 .f32) (x3 : Vec F S64x64 .f32) (x4 : Vec F S1x64 .f32) : Vec F S2000x64 .f32 :=
  View.canon [⟨rOut, k0_pay1 (View.ld x0 (Rect.unit (s := S2000x512) ![0, 0] S2000x512.size inb_S2000x512_S2000x512_0_0))
    (View.ld x1 (Rect.unit (s := S512x64) ![0, 0] S512x64.size inb_S512x64_S512x64_0_0))
    (View.ld x2 (Rect.unit (s := S1x64) ![0, 0] S1x64.size inb_S1x64_S1x64_0_0))
    (View.ld x3 (Rect.unit (s := S64x64) ![0, 0] S64x64.size inb_S64x64_S64x64_0_0))
    (View.ld x4 (Rect.unit (s := S1x64) ![0, 0] S1x64.size inb_S1x64_S1x64_0_0))⟩]

/-- The one store covers the whole buffer. -/
theorem coverOut (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

/-! ## The body's triple -/

set_option maxHeartbeats 4000000 in
/-- The body on whole staging memrefs, the inputs' at read contents `xW` and the output's at anything, runs to the
    continuation holding the inputs' as they were and the output's at `outBlk` of the inputs'. -/
theorem sound_kernel (c : Dev nD) (E : Set ℕ) (i : grid0.Coords)
    (arg1 : Memref sig .tc .vmem S2000x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x512 .f32) (x1 : Vec F S512x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The region's proof data -/

/-- On core `c`: the arrays as the region finds them; after the body at point `t` each input's buffer at its block
    and the output's at `outBlk` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (iblk m c 0 t) (iblk m c 1 t) (iblk m c 2 t) (iblk m c 3 t) (iblk m c 4 t) := by dsimp only [dats]

/-- Each input's current staging buffer holds its block at every point, fetched there or not: an unfetched window's
    block index has not moved, and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run -/

set_option maxRecDepth 200000 in
set_option backward.isDefEq.respectTransparency.types false in
/-- Every weakly fair execution of @main terminates, and every final state has each array of the region at what the
    write-backs assemble and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## What the run leaves -/

/-- An argument that an input window stages ends as launched: an input is never written back. -/
theorem kept_in (r : PUnit × MemSt nD τ sig (Elt F))
    (h : Pipeline.FramePost cfgs (dats m) 0 (Pipeline.afterTail₀ cfgs (dats m) 0 (V0 m) [hostOps1]) r) (c : Dev nD)
    (w : Fin 6) (hin : (cfg0.win w).isOut = false)
    (hb : Pipeline.arrRef spec0 w ∈ ([main_arg0, main_arg1, main_arg2, main_arg3, main_arg4, main_arg5] : List (Ref sig .tc))) :
    r.2.mem ((c : Thread nD τ).loc (Pipeline.arrRef spec0 w)) = m ((c : Thread nD τ).loc (Pipeline.arrRef spec0 w)) :=
  ((h c).1 w).trans (((dats m 0 c).arrAt_in w hin _).trans ((A_eq m c w).trans (V_arg m _ hb c)))

/-- An argument no window stages ends as launched: neither the region nor a later line writes it. -/
theorem kept_rest (r : PUnit × MemSt nD τ sig (Elt F))
    (h : Pipeline.FramePost cfgs (dats m) 0 (Pipeline.afterTail₀ cfgs (dats m) 0 (V0 m) [hostOps1]) r) (c : Dev nD)
    (b : Ref sig .tc) (hs : b.isScoped = false) (hne : ∀ w, Pipeline.arrRef spec0 w ≠ b) (he : b ∈ early)
    (hb : b ∈ ([main_arg0, main_arg1, main_arg2, main_arg3, main_arg4, main_arg5] : List (Ref sig .tc))) :
    r.2.mem ((c : Thread nD τ).loc b) = m ((c : Thread nD τ).loc b) :=
  (((h c).2 b (Pipeline.mem_restRefs_of b hs hne)).trans (W_early m (dats m) c b he hne)).trans (V_arg m b hb c)

/-- The run with the result buffer NAMED — what the later lines compute from the region's exit contents — and the six
    arguments unchanged. -/
theorem run_named : θ_run defs (onTc (τ := τ) (main (F := F))) ⟨m, fun _ => 0, ρ⟩ (fun r => ∀ c : Dev nD,
      r.2.mem ((c.tc : Thread nD τ).loc main_v208) = Pipeline.afterTail₀ cfgs (dats m) 0 (V0 m) [hostOps1] c main_v208
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c).2 main_v208 (Pipeline.mem_restRefs_of main_v208 (by decide) (by decide)),
      kept_in m r h c 0 rfl (by decide),
      kept_rest m r h c main_arg1 (by decide) (by decide) (by decide) (by decide),
      kept_in m r h c 1 rfl (by decide),
      kept_rest m r h c main_arg3 (by decide) (by decide) (by decide) (by decide),
      kept_in m r h c 3 rfl (by decide),
      kept_rest m r h c main_arg5 (by decide) (by decide) (by decide) (by decide)⟩) (run_main m ρ)

/-- The frame: @main terminates without a fault and leaves its six arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Hand

end
-- ==== Proof.Rounds.lean ====
/-
  The ten rounds of message passing that end both programs, as ONE function of the perceptron's result.

  A round sends each edge's source row of the current features, scaled by the edge's normalisation, to the edge's
  destination row (a gather, a product with the broadcast edge weights, a scatter-add into zeros), then blends:
  0.9 times the aggregate plus 0.1 times the perceptron's result `h0`. A negative source index is first wrapped by
  the number of nodes, as the gather's lowering spells it. Both programs run the round ten times from `h = h0`
  with the same edge lists and weights, so their results are the same function `rounds` of `h0`; nothing of the
  round is opened here, at any float instance.
-/
import proofs.«140497_j47124381172062_1_alg».proof.Proof.Gen.KernelIdeal.Launch
import proofs.«140497_j47124381172062_1_alg».proof.Proof.Gen.ReferenceIdeal.Read
import Idealize.ShloMosaic.Lib.StableHlo.Run

set_option maxRecDepth 16384

noncomputable section

namespace Cert.Rounds

open Cert.KernelIdeal Cert.KernelIdeal.Facts₀ Cert.KernelIdeal.Facts Idealize.ShloMosaic Idealize.ShloMosaic.TcCoe Idealize.SL.Sem Idealize.ShloMosaic.StableHlo

variable {F : FTy → Type} [FloatOps F]

/-- One round: gather the source rows of `h`, scale by the edge weights, scatter-add to the destination rows, blend
    with `h0`. -/
def round (src dst : (⟨S1600000, .i32⟩ : BufTy).Contents (Elt F)) (norm : (⟨S1600000, .f32⟩ : BufTy).Contents (Elt F))
    (h0 h : (⟨S100000x64, .f32⟩ : BufTy).Contents (Elt F)) : (⟨S100000x64, .f32⟩ : BufTy).Contents (Elt F) :=
  addf
    (mulf
      (Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 dst)
        (mulf
          (Host.gather gather_S100000x64_S1600000x1_S1600000x64_1_0_n_n_0_1_164 h
            (broadcastInDim S1600000x1 ![0] bcast_S1600000_S1600000x1_0
              (select (cmpi .slt src (broadcastInDim S1600000 ![] bcast_S_S1600000 (constantI S_ 32 0#32)))
                (addi src (broadcastInDim S1600000 ![] bcast_S_S1600000 (constantI S_ 32 100000#32))) src)))
          (broadcastInDim S1600000x64 ![0, 1] bcast_S1600000x1_S1600000x64_0_1
            (broadcastInDim S1600000x1 ![0] bcast_S1600000_S1600000x1_0 norm))))
      (broadcastInDim S100000x64 ![] bcast_S_S100000x64 (constant S_ .f32 0x3F666666#32)))
    (mulf (broadcastInDim S100000x64 ![] bcast_S_S100000x64 (constant S_ .f32 0x3DCCCCCD#32)) h0)

/-- Ten rounds from `h = h0`. -/
def rounds (src dst : (⟨S1600000, .i32⟩ : BufTy).Contents (Elt F)) (norm : (⟨S1600000, .f32⟩ : BufTy).Contents (Elt F))
    (h0 : (⟨S100000x64, .f32⟩ : BufTy).Contents (Elt F)) : (⟨S100000x64, .f32⟩ : BufTy).Contents (Elt F) :=
  round src dst norm h0 (round src dst norm h0 (round src dst norm h0 (round src dst norm h0 (round src dst norm h0
    (round src dst norm h0 (round src dst norm h0 (round src dst norm h0 (round src dst norm h0 (round src dst norm h0 h0)))))))))

/-! ## The kernel's later host lines are the ten rounds -/

set_option maxHeartbeats 400000000 in
/-- From any contents `W` of the buffers at the region's exit, the later lines leave in the result buffer the ten rounds
    of the region's result, with the edge lists and weights the earlier lines left. -/
theorem tail_after (W : Valuation τ sig (Elt F)) :
    StableHlo.after (Cert.KernelIdeal.Gen.hostOps1 (F := F)) W (Proc.devRef .tc main_v208)
      = rounds (W (Proc.devRef .tc main_v1)) (W (Proc.devRef .tc main_v3)) (W (Proc.devRef .tc main_v25)) (W (Proc.devRef .tc main_v28)) := by
  after_results_simp
  rfl

/-! ## The reference's result is the ten rounds of ITS perceptron -/

section Ref

variable (x0 : (⟨Cert.ReferenceIdeal.S100000x512, .f32⟩ : BufTy).Contents (Elt F)) (x1 : (⟨Cert.ReferenceIdeal.S2x1600000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x64, .f32⟩ : BufTy).Contents (Elt F)) (x5 : (⟨Cert.ReferenceIdeal.S64, .f32⟩ : BufTy).Contents (Elt F))

/-- The reference's source list, destination list, edge weights and perceptron result, typed in the kernel's shapes. -/
abbrev rsrc : (⟨S1600000, .i32⟩ : BufTy).Contents (Elt F) := Cert.ReferenceIdeal.Read.val_main_v1 (F := F) x1
abbrev rdst : (⟨S1600000, .i32⟩ : BufTy).Contents (Elt F) := Cert.ReferenceIdeal.Read.val_main_v3 (F := F) x1
abbrev rnorm : (⟨S1600000, .f32⟩ : BufTy).Contents (Elt F) := Cert.ReferenceIdeal.Read.val_main_v25 (F := F) x1
abbrev rh0 : (⟨S100000x64, .f32⟩ : BufTy).Contents (Elt F) := Cert.ReferenceIdeal.Read.val_main_v34 (F := F) x0 x2 x3 x4 x5

theorem ref_round1 : Cert.ReferenceIdeal.Read.val_main_v52 (F := F) x0 x1 x2 x3 x4 x5
    = round (rsrc x1) (rdst x1) (rnorm x1) (rh0 x0 x2 x3 x4 x5) (Cert.ReferenceIdeal.Read.val_main_v34 (F := F) x0 x2 x3 x4 x5) := rfl

theorem ref_round2 : Cert.ReferenceIdeal.Read.val_main_v70 (F := F) x0 x1 x2 x3 x4 x5
    = round (rsrc x1) (rdst x1) (rnorm x1) (rh0 x0 x2 x3 x4 x5) (Cert.ReferenceIdeal.Read.val_main_v52 (F := F) x0 x1 x2 x3 x4 x5) := rfl

theorem ref_round3 : Cert.ReferenceIdeal.Read.val_main_v88 (F := F) x0 x1 x2 x3 x4 x5
    = round (rsrc x1) (rdst x1) (rnorm x1) (rh0 x0 x2 x3 x4 x5) (Cert.ReferenceIdeal.Read.val_main_v70 (F := F) x0 x1 x2 x3 x4 x5) := rfl

theorem ref_round4 : Cert.ReferenceIdeal.Read.val_main_v106 (F := F) x0 x1 x2 x3 x4 x5
    = round (rsrc x1) (rdst x1) (rnorm x1) (rh0 x0 x2 x3 x4 x5) (Cert.ReferenceIdeal.Read.val_main_v88 (F := F) x0 x1 x2 x3 x4 x5) := rfl

theorem ref_round5 : Cert.ReferenceIdeal.Read.val_main_v124 (F := F) x0 x1 x2 x3 x4 x5
    = round (rsrc x1) (rdst x1) (rnorm x1) (rh0 x0 x2 x3 x4 x5) (Cert.ReferenceIdeal.Read.val_main_v106 (F := F) x0 x1 x2 x3 x4 x5) := rfl

theorem ref_round6 : Cert.ReferenceIdeal.Read.val_main_v142 (F := F) x0 x1 x2 x3 x4 x5
    = round (rsrc x1) (rdst x1) (rnorm x1) (rh0 x0 x2 x3 x4 x5) (Cert.ReferenceIdeal.Read.val_main_v124 (F := F) x0 x1 x2 x3 x4 x5) := rfl

theorem ref_round7 : Cert.ReferenceIdeal.Read.val_main_v160 (F := F) x0 x1 x2 x3 x4 x5
    = round (rsrc x1) (rdst x1) (rnorm x1) (rh0 x0 x2 x3 x4 x5) (Cert.ReferenceIdeal.Read.val_main_v142 (F := F) x0 x1 x2 x3 x4 x5) := rfl

theorem ref_round8 : Cert.ReferenceIdeal.Read.val_main_v178 (F := F) x0 x1 x2 x3 x4 x5
    = round (rsrc x1) (rdst x1) (rnorm x1) (rh0 x0 x2 x3 x4 x5) (Cert.ReferenceIdeal.Read.val_main_v160 (F := F) x0 x1 x2 x3 x4 x5) := rfl

theorem ref_round9 : Cert.ReferenceIdeal.Read.val_main_v196 (F := F) x0 x1 x2 x3 x4 x5
    = round (rsrc x1) (rdst x1) (rnorm x1) (rh0 x0 x2 x3 x4 x5) (Cert.ReferenceIdeal.Read.val_main_v178 (F := F) x0 x1 x2 x3 x4 x5) := rfl

theorem ref_round10 : Cert.ReferenceIdeal.Read.val_main_v214 (F := F) x0 x1 x2 x3 x4 x5
    = round (rsrc x1) (rdst x1) (rnorm x1) (rh0 x0 x2 x3 x4 x5) (Cert.ReferenceIdeal.Read.val_main_v196 (F := F) x0 x1 x2 x3 x4 x5) := rfl

/-- The reference's result is the ten rounds of its perceptron's result. -/
theorem ref_rounds : Cert.ReferenceIdeal.Read.val_main_v214 (F := F) x0 x1 x2 x3 x4 x5
    = rounds (rsrc x1) (rdst x1) (rnorm x1) (rh0 x0 x2 x3 x4 x5) := by
  rw [ref_round10, ref_round9, ref_round8, ref_round7, ref_round6, ref_round5, ref_round4, ref_round3, ref_round2, ref_round1]
  rfl

end Ref

end Cert.Rounds

end
-- ==== Proof.Mlp.lean ====
/-
  The two-layer perceptron both programs compute, over the extended reals, entry by entry.

  Row `p`, column `q` of the result: the hidden row is `relu (x[p, :] · W1 + b1)`, that is, for each hidden unit
  `j`, the larger of `0` and `(∑ k, x[p, k] * W1[k, j]) + b1[j]`; the entry is `(∑ j, hidden[j] * W2[j, q]) + b2[q]`.
  Both sums are finite sums in a commutative monoid, so no order or grouping is part of the definition.
-/
import Idealize.ShloMosaic.Lib.ValueIdx

noncomputable section

namespace Cert.Mlp

open Idealize.ShloMosaic Idealize.ShloMosaic.ValueIdx

/-- One hidden unit of row `p`. -/
def hidden (x : (⟨2, ![100000, 512]⟩ : Shape).Idx → EReal) (w1 : (⟨2, ![512, 64]⟩ : Shape).Idx → EReal)
    (b1 : (⟨1, ![64]⟩ : Shape).Idx → EReal) (p : Fin 100000) (j : Fin 64) : EReal :=
  max ((∑ k : Fin 512, x (ix2 p k) * w1 (ix2 k j)) + b1 (ix1 j)) 0

/-- One entry of the result. -/
def entry (x : (⟨2, ![100000, 512]⟩ : Shape).Idx → EReal) (w1 : (⟨2, ![512, 64]⟩ : Shape).Idx → EReal)
    (b1 : (⟨1, ![64]⟩ : Shape).Idx → EReal) (w2 : (⟨2, ![64, 64]⟩ : Shape).Idx → EReal) (b2 : (⟨1, ![64]⟩ : Shape).Idx → EReal)
    (p : Fin 100000) (q : Fin 64) : EReal :=
  (∑ j : Fin 64, hidden x w1 b1 p j * w2 (ix2 j q)) + b2 (ix1 q)

/-- The whole result array. -/
def mlp (x : (⟨2, ![100000, 512]⟩ : Shape).Idx → EReal) (w1 : (⟨2, ![512, 64]⟩ : Shape).Idx → EReal)
    (b1 : (⟨1, ![64]⟩ : Shape).Idx → EReal) (w2 : (⟨2, ![64, 64]⟩ : Shape).Idx → EReal) (b2 : (⟨1, ![64]⟩ : Shape).Idx → EReal) :
    (⟨2, ![100000, 64]⟩ : Shape).Idx → EReal :=
  fun i => entry x w1 b1 w2 b2 (i 0) (i 1)

end Cert.Mlp

end
-- ==== Proof.RefMlp.lean ====
/-
  The reference's perceptron, read entry by entry: its two `dot_general`s are the two sums, its bias rows broadcast
  over the nodes are `b1[j]` and `b2[q]`, and its `relu` is the maximum with the zero constant.
-/
import proofs.«140497_j47124381172062_1_alg».proof.Proof.Gen.ReferenceIdeal.Read
import proofs.«140497_j47124381172062_1_alg».proof.Proof.Mlp

noncomputable section

namespace Cert.RefMlp

open Cert.ReferenceIdeal Cert.ReferenceIdeal.Read Idealize.ShloMosaic Idealize.ShloMosaic.ValueIdx

/-! ## Where each stage reads its operands -/

theorem l31 (p : Fin 100000) (q j : Fin 64) : lidx_main_v31 (ix2 p q) j = ix2 p j :=
  funext fun a => by match a with | ⟨0, _⟩ => rfl | ⟨1, _⟩ => rfl
theorem r31 (p : Fin 100000) (q j : Fin 64) : ridx_main_v31 (ix2 p q) j = ix2 j q :=
  funext fun a => by match a with | ⟨0, _⟩ => rfl | ⟨1, _⟩ => rfl
theorem l26 (p : Fin 100000) (j : Fin 64) (k : Fin 512) : lidx_main_v26 (ix2 p j) k = ix2 p k :=
  funext fun a => by match a with | ⟨0, _⟩ => rfl | ⟨1, _⟩ => rfl
theorem r26 (p : Fin 100000) (j : Fin 64) (k : Fin 512) : ridx_main_v26 (ix2 p j) k = ix2 k j :=
  funext fun a => by match a with | ⟨0, _⟩ => rfl | ⟨1, _⟩ => rfl
theorem i27 (p : Fin 100000) (j : Fin 64) : idx_main_v27 (idx_main_v28 (ix2 p j)) = ix1 j :=
  funext fun a => by match a with | ⟨0, _⟩ => rfl
theorem i32 (p : Fin 100000) (q : Fin 64) : idx_main_v32 (idx_main_v33 (ix2 p q)) = ix1 q :=
  funext fun a => by match a with | ⟨0, _⟩ => rfl

/-- The reference's hidden layer at row `p`, unit `j`. -/
theorem hidden_eq (x0 : (⟨S100000x512, .f32⟩ : BufTy).Contents (Elt Ideal)) (x2 : (⟨S512x64, .f32⟩ : BufTy).Contents (Elt Ideal))
    (x3 : (⟨S64, .f32⟩ : BufTy).Contents (Elt Ideal)) (p : Fin 100000) (j : Fin 64) :
    val_main_v30 (F := Ideal) x0 x2 x3 (ix2 p j) = Cert.Mlp.hidden x0 x2 x3 p j := by
  rw [val_main_v30_apply, val_main_v29_apply, val_main_v26_apply, val_main_v28_apply, val_main_v27_apply,
    val_main_call0_v0_apply, val_main_call0_cst_apply, i27]
  simp only [l26, r26, Ideal.addf_def, Ideal.maximumf_def, Ideal.ofBits_def, Ideal.ofBits_zero_f32]
  rfl

/-- The reference's perceptron is the specification. -/
theorem ref_mlp (x0 : (⟨S100000x512, .f32⟩ : BufTy).Contents (Elt Ideal)) (x2 : (⟨S512x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) :
    val_main_v34 (F := Ideal) x0 x2 x3 x4 x5 = Cert.Mlp.mlp x0 x2 x3 x4 x5 := by
  funext i
  obtain ⟨p, q, rfl⟩ : ∃ (p : Fin 100000) (q : Fin 64), i = ix2 p q := ⟨i 0, i 1, eq_ix2 i⟩
  rw [val_main_v34_apply, val_main_v31_apply, val_main_v33_apply, val_main_v32_apply, i32]
  simp only [l31, r31, hidden_eq, Ideal.addf_def]
  rfl

end Cert.RefMlp

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KernelPayload.lean ====
/-
  The kernel body's one stored value, read entry by entry at the extended reals.

  The body multiplies the loaded 2000 x 512 block of features by the first weight matrix into a zero accumulator
  (a plain sum over the 512 contracted coordinates: the changes of float format are the identity), adds the first
  bias row broadcast down the rows, takes the maximum with zero, multiplies by the second weight matrix the same way
  and adds the second bias row. At row `p`, column `q` of the block that is the perceptron's entry for the block's
  row `p`.
-/
import proofs.«140497_j47124381172062_1_alg».proof.Proof.Gen.KernelIdeal.Skeleton
import proofs.«140497_j47124381172062_1_alg».proof.Proof.LibDotRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayload

open Cert.KernelIdeal Cert.KernelIdeal.Gen
open Idealize.ShloMosaic Idealize.ShloMosaic.ValueIdx

/-! ## The two products' operand coordinates that are not contracted -/

theorem d1_lhs0 (i : S2000x64.Idx) (k : dot_S2000x512_S512x64_S2000x64_1_0_0_1_n_n.contr.Idx) :
    (dot_S2000x512_S512x64_S2000x64_1_0_0_1_n_n.lhsIdx i k 0).val = (i 0).val := by
  unfold DotDims.lhsIdx
  rw [dif_neg (show ¬(0 : Fin S2000x512.rank) ∈ dot_S2000x512_S512x64_S2000x64_1_0_0_1_n_n.lhsBatch by decide),
    dif_pos (show (0 : Fin S2000x512.rank) ∈ dot_S2000x512_S512x64_S2000x64_1_0_0_1_n_n.lhsNonContracting by decide)]
  rfl
theorem d1_rhs1 (i : S2000x64.Idx) (k : dot_S2000x512_S512x64_S2000x64_1_0_0_1_n_n.contr.Idx) :
    (dot_S2000x512_S512x64_S2000x64_1_0_0_1_n_n.rhsIdx i k 1).val = (i 1).val := by
  unfold DotDims.rhsIdx
  rw [dif_neg (show ¬(1 : Fin S512x64.rank) ∈ dot_S2000x512_S512x64_S2000x64_1_0_0_1_n_n.rhsBatch by decide),
    dif_pos (show (1 : Fin S512x64.rank) ∈ dot_S2000x512_S512x64_S2000x64_1_0_0_1_n_n.rhsNonContracting by decide)]
  rfl
theorem d2_lhs0 (i : S2000x64.Idx) (k : dot_S2000x64_S64x64_S2000x64_1_0_0_1_n_n.contr.Idx) :
    (dot_S2000x64_S64x64_S2000x64_1_0_0_1_n_n.lhsIdx i k 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem d2_rhs1 (i : S2000x64.Idx) (k : dot_S2000x64_S64x64_S2000x64_1_0_0_1_n_n.contr.Idx) :
    (dot_S2000x64_S64x64_S2000x64_1_0_0_1_n_n.rhsIdx i k 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-! ## The pieces at an entry -/

/-- The first product into the zero accumulator: the sum over the 512 contracted coordinates. -/
theorem prod1 (L : FVec Ideal S2000x512 .bf16) (R : FVec Ideal S512x64 .bf16) (p : Fin 2000) (j : Fin 64) :
    matmul dot_S2000x512_S512x64_S2000x64_1_0_0_1_n_n none L R (constant S2000x64 .f32 0x00000000#32) (ix2 p j)
      = ∑ k : Fin 512, L (ix2 p k) * R (ix2 k j) := by
  simp only [matmul]
  rw [Ideal.matmul_constant_zero_apply]
  exact DotRow.sum_contr dot_S2000x512_S512x64_S2000x64_1_0_0_1_n_n rfl rfl rfl rfl d1_lhs0 d1_rhs1 L R p j

/-- The second product: the sum over the 64 hidden units. -/
theorem prod2 (L : FVec Ideal S2000x64 .bf16) (R : FVec Ideal S64x64 .bf16) (p : Fin 2000) (q : Fin 64) :
    matmul dot_S2000x64_S64x64_S2000x64_1_0_0_1_n_n none L R (constant S2000x64 .f32 0x00000000#32) (ix2 p q)
      = ∑ j : Fin 64, L (ix2 p j) * R (ix2 j q) := by
  simp only [matmul]
  rw [Ideal.matmul_constant_zero_apply]
  exact DotRow.sum_contr dot_S2000x64_S64x64_S2000x64_1_0_0_1_n_n rfl rfl rfl rfl d2_lhs0 d2_rhs1 L R p q

/-- A bias row broadcast down the block's rows reads the row at the column. -/
theorem bias (b : FVec Ideal S1x64 .f32) (p : Fin 2000) (q : Fin 64) :
    broadcastTo S2000x64 (shapeCast S1x64 b shapeCasts_S1x64_S1x64) broadcasts_S1x64_S2000x64 (ix2 p q) = b (ix2 (0 : Fin 1) q) := by
  rw [shapeCast_self]
  exact broadcastTo_1b_ab_apply b broadcasts_S1x64_S2000x64 p q

/-- The hidden layer the body forms, at row `p` of the block and unit `j`. -/
def hid (v0 : FVec Ideal S2000x512 .f32) (v2 : FVec Ideal S512x64 .f32) (v5 : FVec Ideal S1x64 .f32) (p : Fin 2000) (j : Fin 64) : EReal :=
  max ((∑ k : Fin 512, v0 (ix2 p k) * v2 (ix2 k j)) + v5 (ix2 (0 : Fin 1) j)) 0

/-- THE PAYLOAD AT AN ENTRY: the perceptron's entry over the loaded blocks. -/
theorem pay_entry (v0 : FVec Ideal S2000x512 .f32) (v2 : FVec Ideal S512x64 .f32) (v5 : FVec Ideal S1x64 .f32)
    (v12 : FVec Ideal S64x64 .f32) (v15 : FVec Ideal S1x64 .f32) (p : Fin 2000) (q : Fin 64) :
    k0_pay1 (F := Ideal) v0 v2 v5 v12 v15 (ix2 p q)
      = (∑ j : Fin 64, hid v0 v2 v5 p j * v12 (ix2 j q)) + v15 (ix2 (0 : Fin 1) q) := by
  unfold k0_pay1
  rw [addf_apply, prod2, bias]
  refine congrArg (· + v15 (ix2 (0 : Fin 1) q)) (Finset.sum_congr rfl fun j _ => ?_)
  rw [truncf_apply, truncf_apply, maximumf_apply, addf_apply, prod1, bias, broadcast_apply]
  simp only [truncf_apply]
  show max _ (Ideal.ofBits .f32 0x00000000#32) * _ = _
  rw [Ideal.ofBits_zero_f32]
  rfl

end Cert.KernelPayload

end
-- ==== Proof.KernelValue.lean ====
/-
  What the idealized kernel's result buffer holds after its run, as one function of the arguments.

  The region's result array: grid point `t` writes back rows `2000 t … 2000 t + 1999`, all 64 columns, and what it
  writes at row `p` of the block is the perceptron's entry for row `2000 t + p` of the features (the features' block at
  point `t` is those same rows, the weights and bias rows are whole at every point). The fifty blocks tile the array,
  so the array ends at the perceptron of the arguments. The later host lines then run the ten rounds on it, from the
  edge lists and weights the earlier host lines computed from the edge argument.
-/
import proofs.«140497_j47124381172062_1_alg».proof.Proof.RunKernelIdeal
import proofs.«140497_j47124381172062_1_alg».proof.Proof.KernelPayload
import proofs.«140497_j47124381172062_1_alg».proof.Proof.Mlp
import proofs.«140497_j47124381172062_1_alg».proof.Proof.Rounds
import Idealize.ShloMosaic.Lib.Pipeline.Value
import Idealize.ShloMosaic.Lib.ValueLayout

set_option maxRecDepth 16384

noncomputable section

namespace Cert.KernelValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the features' window and the output's are at row block `t`, the weights
    and the bias rows at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The region's result as one function of the arrays the region finds: the perceptron, the bias rows read off their
    re-laid [1, 64] arrays. -/
def G (c : Dev nD) : S100000x64.Idx → EReal :=
  Cert.Mlp.mlp (V m c main_arg0) (V m c main_arg2) (fun i => V m c main_v26 (ix2 (0 : Fin 1) (i 0)))
    (V m c main_arg4) (fun i => V m c main_v27 (ix2 (0 : Fin 1) (i 0)))

/-- WHAT POINT `t` WRITES BACK is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after_5]
  unfold outBlk
  rw [View.canon_unit_zero hz]
  simp only [View.ld_unit_zero (S := S2000x512) hz, View.ld_unit_zero (S := S512x64) hz, View.ld_unit_zero (S := S1x64) hz,
    View.ld_unit_zero (S := S64x64) hz]
  obtain ⟨e00, e01, e10, e11, e20, e21, e30, e31, e40, e41, e50, e51⟩ := idx_facts t
  have ht : t.val < 50 := lt_of_lt_of_eq t.isLt N_0
  funext j
  obtain ⟨p, q, rfl⟩ : ∃ (p : Fin 2000) (q : Fin 64), j = ix2 p q := ⟨j 0, j 1, eq_ix2 j⟩
  have hp : p.val < 2000 := p.isLt
  have hq : q.val < 64 := q.isLt
  show k0_pay1 (F := Ideal) (iblk m c 0 t) (iblk m c 1 t) (iblk m c 2 t) (iblk m c 3 t) (iblk m c 4 t) (ix2 p q)
    = G m c (((cfg0.win 5).blk t).view.emb (ix2 p q))
  refine (Cert.KernelPayload.pay_entry (iblk m c 0 t) (iblk m c 1 t) (iblk m c 2 t) (iblk m c 3 t) (iblk m c 4 t) p q).trans ?_
  have r0 : ∀ k : Fin 512, iblk m c 0 t (ix2 p k) = V m c main_arg0 (ix2 (⟨t.val * 2000 + p.val, by omega⟩ : Fin 100000) k) := fun k => by
    have hk : k.val < 512 := k.isLt
    show V m c main_arg0 (((cfg0.win 0).blk t).view.emb (ix2 p k)) = _
    refine congrArg (V m c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 512 + 1 * k.val = k.val; omega
  have r1 : ∀ (k : Fin 512) (j : Fin 64), iblk m c 1 t (ix2 k j) = V m c main_arg2 (ix2 k j) := fun k j => by
    have hk : k.val < 512 := k.isLt
    have hj : j.val < 64 := j.isLt
    show V m c main_arg2 (((cfg0.win 1).blk t).view.emb (ix2 k j)) = _
    refine congrArg (V m c main_arg2) (funext fun a => Fin.ext ?_)
    match a with
    | ⟨0, _⟩ => show win0_1.index t (0 : Fin 2) * 512 + 1 * k.val = k.val; omega
    | ⟨1, _⟩ => show win0_1.index t (1 : Fin 2) * 64 + 1 * j.val = j.val; omega
  have r2 : ∀ j : Fin 64, iblk m c 2 t (ix2 (0 : Fin 1) j) = V m c main_v26 (ix2 (0 : Fin 1) j) := fun j => by
    have hj : j.val < 64 := j.isLt
    show V m c main_v26 (((cfg0.win 2).blk t).view.emb (ix2 (0 : Fin 1) j)) = _
    refine congrArg (V m c main_v26) (funext fun a => Fin.ext ?_)
    match a with
    | ⟨0, _⟩ => show win0_2.index t (0 : Fin 2) * 1 + 1 * 0 = 0; omega
    | ⟨1, _⟩ => show win0_2.index t (1 : Fin 2) * 64 + 1 * j.val = j.val; omega
  have r3 : ∀ (j q : Fin 64), iblk m c 3 t (ix2 j q) = V m c main_arg4 (ix2 j q) := fun j q => by
    have hj : j.val < 64 := j.isLt
    have hq : q.val < 64 := q.isLt
    show V m c main_arg4 (((cfg0.win 3).blk t).view.emb (ix2 j q)) = _
    refine congrArg (V m c main_arg4) (funext fun a => Fin.ext ?_)
    match a with
    | ⟨0, _⟩ => show win0_3.index t (0 : Fin 2) * 64 + 1 * j.val = j.val; omega
    | ⟨1, _⟩ => show win0_3.index t (1 : Fin 2) * 64 + 1 * q.val = q.val; omega
  have r4 : ∀ q : Fin 64, iblk m c 4 t (ix2 (0 : Fin 1) q) = V m c main_v27 (ix2 (0 : Fin 1) q) := fun q => by
    have hq : q.val < 64 := q.isLt
    show V m c main_v27 (((cfg0.win 4).blk t).view.emb (ix2 (0 : Fin 1) q)) = _
    refine congrArg (V m c main_v27) (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega
  have rR : ((cfg0.win 5).blk t).view.emb (ix2 p q) = ix2 (⟨t.val * 2000 + p.val, by omega⟩ : Fin 100000) q := by
    refine funext fun a => Fin.ext ?_
    match a with
    | ⟨0, _⟩ => show win0_5.index t (0 : Fin 2) * 2000 + 1 * p.val = t.val * 2000 + p.val; omega
    | ⟨1, _⟩ => show win0_5.index t (1 : Fin 2) * 64 + 1 * q.val = q.val; omega
  rw [rR]
  unfold Cert.KernelPayload.hid G Cert.Mlp.mlp Cert.Mlp.entry Cert.Mlp.hidden
  simp only [r0, r1, r2, r3, r4]

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v28).slice (win0_5.rect t)).set ↔ _
  rw [View.set_slice_whole, Rect.mem_set_unit]
  exact Iff.rfl

/-- Row `r` is in the block of point `r / 2000`: the fifty blocks tile the array. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hlt : (i 0).val / 2000 < cfg0.N := lt_of_lt_of_eq (by omega : (i 0).val / 2000 < 50) N_0.symm
  obtain ⟨-, -, -, -, -, -, -, -, -, -, e50, e51⟩ := idx_facts ⟨(i 0).val / 2000, hlt⟩
  have e50' : win0_5.index ⟨(i 0).val / 2000, hlt⟩ (0 : Fin 2) = (i 0).val / 2000 := e50
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    omega
  | ⟨1, _⟩ =>
    show win0_5.index ⟨(i 0).val / 2000, hlt⟩ (1 : Fin 2) * 64 ≤ (i 1).val ∧ (i 1).val < win0_5.index ⟨(i 0).val / 2000, hlt⟩ (1 : Fin 2) * 64 + 64
    omega

/-- THE REGION'S RESULT ARRAY after the region: `G`. -/
theorem final (c : Dev nD) : (dats m 0 c).arrAt 5 cfg0.N = G m c :=
  (dats m 0 c).arrAt_eq_of_cover 5 (G m c) (fun t _ => flushed_eq m c t) cover

/-! ## The arrays the region finds, from the arguments -/

/-- The first bias row re-laid as [1, 64]. -/
theorem V_v26 (c : Dev nD) : (V m c main_v26 : S1x64.Idx → EReal)
    = shapeCast S1x64 (m ((c : Thread nD τ).loc main_arg3)) shapeCasts_S64_S1x64 := by
  show StableHlo.after hostOps0 (fun b => m (c, b)) (Proc.devRef .tc main_v26) = _
  after_results_simp
  rfl
/-- The second bias row re-laid as [1, 64]. -/
theorem V_v27 (c : Dev nD) : (V m c main_v27 : S1x64.Idx → EReal)
    = shapeCast S1x64 (m ((c : Thread nD τ).loc main_arg5)) shapeCasts_S64_S1x64 := by
  show StableHlo.after hostOps0 (fun b => m (c, b)) (Proc.devRef .tc main_v27) = _
  after_results_simp
  rfl

/-- The region's result is the perceptron of the ARGUMENTS. -/
theorem G_eq (c : Dev nD) : G m c = Cert.Mlp.mlp (m ((c : Thread nD τ).loc main_arg0)) (m ((c : Thread nD τ).loc main_arg2))
    (m ((c : Thread nD τ).loc main_arg3)) (m ((c : Thread nD τ).loc main_arg4)) (m ((c : Thread nD τ).loc main_arg5)) := by
  unfold G
  rw [V_arg m main_arg0 (by decide) c, V_arg m main_arg2 (by decide) c, V_arg m main_arg4 (by decide) c, V_v26, V_v27]
  refine congrArg₂ (fun b1 b2 => Cert.Mlp.mlp _ _ b1 _ b2) (funext fun i => ?_) (funext fun i => ?_)
  · obtain ⟨j, rfl⟩ : ∃ j : Fin 64, i = ix1 j := ⟨i 0, eq_ix1 i⟩
    exact shapeCast_a_1a_apply (m ((c : Thread nD τ).loc main_arg3)) shapeCasts_S64_S1x64 0 j
  · obtain ⟨j, rfl⟩ : ∃ j : Fin 64, i = ix1 j := ⟨i 0, eq_ix1 i⟩
    exact shapeCast_a_1a_apply (m ((c : Thread nD τ).loc main_arg5)) shapeCasts_S64_S1x64 0 j

/-- The edge lists and weights the earlier host lines leave are the reference's stages of the edge argument. -/
theorem V_src (c : Dev nD) : V m c main_v1 = Cert.ReferenceIdeal.Read.val_main_v1 (F := Ideal) (m ((c : Thread nD τ).loc main_arg1)) := by
  show StableHlo.after hostOps0 (fun b => m (c, b)) (Proc.devRef .tc main_v1) = _
  after_results_simp
  rfl
theorem V_dst (c : Dev nD) : V m c main_v3 = Cert.ReferenceIdeal.Read.val_main_v3 (F := Ideal) (m ((c : Thread nD τ).loc main_arg1)) := by
  show StableHlo.after hostOps0 (fun b => m (c, b)) (Proc.devRef .tc main_v3) = _
  after_results_simp
  rfl
set_option maxHeartbeats 4000000 in
theorem V_norm (c : Dev nD) : V m c main_v25 = Cert.ReferenceIdeal.Read.val_main_v25 (F := Ideal) (m ((c : Thread nD τ).loc main_arg1)) := by
  show StableHlo.after hostOps0 (fun b => m (c, b)) (Proc.devRef .tc main_v25) = _
  after_results_simp
  rfl

/-! ## The result buffer -/

/-- After the run the result buffer holds the ten rounds of the perceptron of the arguments. -/
theorem result (c : Dev nD) :
    Pipeline.afterTail₀ cfgs (dats m) 0 (V0 m) [hostOps1] c main_v208
      = Cert.Rounds.rounds (Cert.ReferenceIdeal.Read.val_main_v1 (F := Ideal) (m ((c : Thread nD τ).loc main_arg1)))
          (Cert.ReferenceIdeal.Read.val_main_v3 (F := Ideal) (m ((c : Thread nD τ).loc main_arg1)))
          (Cert.ReferenceIdeal.Read.val_main_v25 (F := Ideal) (m ((c : Thread nD τ).loc main_arg1)))
          (Cert.Mlp.mlp (m ((c : Thread nD τ).loc main_arg0)) (m ((c : Thread nD τ).loc main_arg2))
            (m ((c : Thread nD τ).loc main_arg3)) (m ((c : Thread nD τ).loc main_arg4)) (m ((c : Thread nD τ).loc main_arg5))) := by
  unfold Pipeline.afterTail₀
  simp only [List.flatten_cons, List.flatten_nil, List.append_nil]
  rw [Cert.Rounds.tail_after,
    Pipeline.withArrays_of_ne _ c (V0 m c) _ main_v1 (by decide),
    Pipeline.withArrays_of_ne _ c (V0 m c) _ main_v3 (by decide),
    Pipeline.withArrays_of_ne _ c (V0 m c) _ main_v25 (by decide)]
  exact congr (congr (congr (congrArg Cert.Rounds.rounds (V_src m c)) (V_dst m c)) (V_norm m c))
    ((Pipeline.withArrays_arr spec0 launch0.win.arr_inj c (V0 m c) _ 5).trans ((final m c).trans (G_eq m c)))

end Cert.KernelValue

end
-- ==== Proof.lean ====
/-
  A two-layer perceptron computed by one pipelined TensorCore region (row blocks of 2000 nodes, bf16 products into f32
  accumulators) followed by ten rounds of degree-normalised message passing on the host, against the same network written
  in plain array operations.

  Over the extended reals the two programs are one function of the arguments. The host lines before the region (the
  edge normalisation from the in-degrees) and after it (the ten rounds) are the same operations in both programs; the
  only difference is how the perceptron `relu (x W1 + b1) W2 + b2` is computed. In the kernel each grid point forms
  the 2000 rows of its block with two matrix products into zero accumulators, the changes of float format being the
  identity at the exact values; in the reference two whole `dot_general`s. Entry by entry both are the same finite sums
  (`Cert.Mlp.entry`), the kernel's fifty blocks tile the result array, and the ten rounds are then applied to equal
  arrays — the rounds are never opened, so no finiteness of the inputs is used.

  The frames: each kernel program's run (earlier host lines, the region, later host lines) ends with every argument as
  launched, since the region only reads the arguments it stages and every later line writes a buffer created after the
  region; the reference's frame is its run with the result dropped. The idealization rewrote nothing, so its ledger
  is empty.
-/
import proofs.«140497_j47124381172062_1_alg».proof.Defs
import proofs.«140497_j47124381172062_1_alg».proof.Proof.Gen.Kernel
import proofs.«140497_j47124381172062_1_alg».proof.Proof.Gen.KernelIdeal
import proofs.«140497_j47124381172062_1_alg».proof.Proof.Gen.ReferenceIdeal
import proofs.«140497_j47124381172062_1_alg».proof.Proof.Gen.Pre_finite_inputs
import proofs.«140497_j47124381172062_1_alg».proof.Proof.Gen.ReferenceIdeal.Run
import proofs.«140497_j47124381172062_1_alg».proof.Proof.Gen.ReferenceIdeal.Read
import proofs.«140497_j47124381172062_1_alg».proof.Proof.RunKernel
import proofs.«140497_j47124381172062_1_alg».proof.Proof.RunKernelIdeal
import proofs.«140497_j47124381172062_1_alg».proof.Proof.Rounds
import proofs.«140497_j47124381172062_1_alg».proof.Proof.RefMlp
import proofs.«140497_j47124381172062_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result: the ten rounds of the perceptron of ITS arguments. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v214 m' c
      = Cert.Rounds.rounds (Cert.ReferenceIdeal.Read.val_main_v1 (F := Ideal) (m' ((c.tc : Thread Cert.ReferenceIdeal.nD Cert.ReferenceIdeal.τ).loc Cert.ReferenceIdeal.main_arg1)))
          (Cert.ReferenceIdeal.Read.val_main_v3 (F := Ideal) (m' ((c.tc : Thread Cert.ReferenceIdeal.nD Cert.ReferenceIdeal.τ).loc Cert.ReferenceIdeal.main_arg1)))
          (Cert.ReferenceIdeal.Read.val_main_v25 (F := Ideal) (m' ((c.tc : Thread Cert.ReferenceIdeal.nD Cert.ReferenceIdeal.τ).loc Cert.ReferenceIdeal.main_arg1)))
          (Cert.Mlp.mlp (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))) := by
  rw [Cert.ReferenceIdeal.Read.val_main_v214_eq, Cert.Rounds.ref_rounds]
  exact congrArg (Cert.Rounds.rounds _ _ _) (Cert.RefMlp.ref_mlp _ _ _ _ _)

/-- From memories agreeing on the arguments both idealized programs end with the ten rounds of the perceptron of the
    arguments in their result buffers. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) [Cert.KernelIdeal.Gen.hostOps1] c Cert.KernelIdeal.main_v208,
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [ref_result, (hagree c).1, (hagree c).2.1, (hagree c).2.2.1, (hagree c).2.2.2.1, (hagree c).2.2.2.2.1, (hagree c).2.2.2.2.2]
  exact (Cert.KernelValue.result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
